-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg9 : FVec F S128x4 .f32) (main_arg10 : FVec F S4 .f32) (main_v33 : IVec S_ 1) : IVec S_ 1 :=
  let main_v34 : FVec F S128x4 .f32 := Host.absf main_arg9
  let main_cst_12 : FVec F S_ .f32 := constant S_ .f32 0x7F800000#32
  let main_v35 : FVec F S128x4 .f32 := broadcastInDim S128x4 ![] bcast_S_S128x4 main_cst_12
  let main_v36 : IVec S128x4 1 := cmpf .olt main_v34 main_v35
  let main_c_13 : IVec S_ 1 := constantI S_ 1 1#1
  let main_v37 : IVec S_ 1 := (fun x v => Host.reduce IntOp.andi x v reducesTo_S128x4_S_d0_1 h_S_) main_v36 main_c_13
  let main_v38 : IVec S_ 1 := andi main_v33 main_v37
  let main_v39 : FVec F S4 .f32 := Host.absf main_arg10
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg6 : FVec F S128x128 .f32) (main_arg7 : FVec F S128x128 .f32) (main_arg8 : FVec F S128 .f32) (main_arg9 : FVec F S128x4 .f32) (main_arg10 : FVec F S4 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x4 .f32) (main_arg10 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1024 : Shape := ⟨1, ![1024]⟩
abbrev S1024x1 : Shape := ⟨2, ![1024, 1]⟩
abbrev S1024x128 : Shape := ⟨2, ![1024, 128]⟩
abbrev S1024x4 : Shape := ⟨2, ![1024, 4]⟩
abbrev S1x4 : Shape := ⟨2, ![1, 4]⟩

abbrev nBuf : Space → Nat
  | .hbm => 79
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x4, .f32⟩
  | .hbm, ⟨10, _⟩ => ⟨S4, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S_, .f32⟩
  | .hbm, ⟨60, _⟩ => ⟨S100000, .f32⟩
  | .hbm, ⟨61, _⟩ => ⟨S_, .f32⟩
  | .hbm, ⟨62, _⟩ => ⟨S1024, .f32⟩
  | .hbm, ⟨63, _⟩ => ⟨S100000x1, .i32⟩
  | .hbm, ⟨64, _⟩ => ⟨S1024, .f32⟩
  | .hbm, ⟨65, _⟩ => ⟨S_, .f32⟩
  | .hbm, ⟨66, _⟩ => ⟨S1024, .f32⟩
  | .hbm, ⟨67, _⟩ => ⟨S1024, .f32⟩
  | .hbm, ⟨68, _⟩ => ⟨S1024x1, .f32⟩
  | .hbm, ⟨69, _⟩ => ⟨S_, .f32⟩
  | .hbm, ⟨70, _⟩ => ⟨S1024x128, .f32⟩
  | .hbm, ⟨71, _⟩ => ⟨S100000x1, .i32⟩
  | .hbm, ⟨72, _⟩ => ⟨S1024x128, .f32⟩
  | .hbm, ⟨73, _⟩ => ⟨S1024x128, .f32⟩
  | .hbm, ⟨74, _⟩ => ⟨S1024x128, .f32⟩
  | .hbm, ⟨75, _⟩ => ⟨S1024x4, .f32⟩
  | .hbm, ⟨76, _⟩ => ⟨S1x4, .f32⟩
  | .hbm, ⟨77, _⟩ => ⟨S1024x4, .f32⟩
  | .hbm, ⟨78, _⟩ => ⟨S1024x4, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1024 : S_.BroadcastsInDim S1024 (![] : Fin 0 → Fin S1024.rank)
  bcast_S1024_S1024x1_0 : S1024.BroadcastsInDim S1024x1 (![0] : Fin 1 → Fin S1024x1.rank)
  bcast_S_S1024x128 : S_.BroadcastsInDim S1024x128 (![] : Fin 0 → Fin S1024x128.rank)
  bcast_S1024x1_S1024x128_0_1 : S1024x1.BroadcastsInDim S1024x128 (![0, 1] : Fin 2 → Fin S1024x128.rank)
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S1024_S100000x1_S100000_n_0_0_1_wf : ScatterDims.WF S1024 S100000x1 S100000 [] [0] [0] 1
  scatter_S1024x128_S100000x1_S100000x128_1_0_0_1_wf : ScatterDims.WF S1024x128 S100000x1 S100000x128 [1] [0] [0] 1
  dot_S1024x128_S128x4_S1024x4_1_0_0_1_n_n_wf : DotDims.WF S1024x128 S128x4 S1024x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x128_S128x4_S1024x4_1_0_0_1_n_n : DotDims S1024x128 S128x4 S1024x4 where
  lhsContracting := [1]
  rhsContracting := [0]
  lhsNonContracting := [0]
  rhsNonContracting := [1]
  lhsBatch := []
  rhsBatch := []
  wf := dot_S1024x128_S128x4_S1024x4_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩
abbrev S1024x4 : Shape := ⟨2, ![1024, 4]⟩
abbrev S1x4 : Shape := ⟨2, ![1, 4]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x4, .f32⟩
  | .hbm, ⟨10, _⟩ => ⟨S4, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S_, .f32⟩
  | .hbm, ⟨63, _⟩ => ⟨S1600000, .f32⟩
  | .hbm, ⟨64, _⟩ => ⟨S_, .f32⟩
  | .hbm, ⟨65, _⟩ => ⟨S100000, .f32⟩
  | .hbm, ⟨66, _⟩ => ⟨S1600000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S1024x128, .f32⟩
  | .hbm, ⟨82, _⟩ => ⟨S100000x1, .i32⟩
  | .hbm, ⟨83, _⟩ => ⟨S1024x128, .f32⟩
  | .hbm, ⟨84, _⟩ => ⟨S_, .f32⟩
  | .hbm, ⟨85, _⟩ => ⟨S100000, .f32⟩
  | .hbm, ⟨86, _⟩ => ⟨S_, .f32⟩
  | .hbm, ⟨87, _⟩ => ⟨S1024, .f32⟩
  | .hbm, ⟨88, _⟩ => ⟨S100000x1, .i32⟩
  | .hbm, ⟨89, _⟩ => ⟨S1024, .f32⟩
  | .hbm, ⟨90, _⟩ => ⟨S_, .f32⟩
  | .hbm, ⟨91, _⟩ => ⟨S1024, .f32⟩
  | .hbm, ⟨92, _⟩ => ⟨S1024, .f32⟩
  | .hbm, ⟨93, _⟩ => ⟨S1024x1, .f32⟩
  | .hbm, ⟨94, _⟩ => ⟨S1024x128, .f32⟩
  | .hbm, ⟨95, _⟩ => ⟨S1024x128, .f32⟩
  | .hbm, ⟨96, _⟩ => ⟨S1024x4, .f32⟩
  | .hbm, ⟨97, _⟩ => ⟨S1x4, .f32⟩
  | .hbm, ⟨98, _⟩ => ⟨S1024x4, .f32⟩
  | .hbm, ⟨99, _⟩ => ⟨S1024x4, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1024x128 : S_.BroadcastsInDim S1024x128 (![] : Fin 0 → Fin S1024x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  scatter_S1024x128_S100000x1_S100000x128_1_0_0_1_wf : ScatterDims.WF S1024x128 S100000x1 S100000x128 [1] [0] [0] 1
  scatter_S1024_S100000x1_S100000_n_0_0_1_wf : ScatterDims.WF S1024 S100000x1 S100000 [] [0] [0] 1
  dot_S1024x128_S128x4_S1024x4_1_0_0_1_n_n_wf : DotDims.WF S1024x128 S128x4 S1024x4 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x128_S128x4_S1024x4_1_0_0_1_n_n : DotDims S1024x128 S128x4 S1024x4 where
  lhsContracting := [1]
  rhsContracting := [0]
  lhsNonContracting := [0]
  rhsNonContracting := [1]
  lhsBatch := []
  rhsBatch := []
  wf := dot_S1024x128_S128x4_S1024x4_1_0_0_1_n_n_wf

class Facts : Prop extends Facts₀ where

variable [Facts]
-- ==== Proof.KernelRun.lean ====
/-
  The run of the two-layer program, with its result kept.

  @main is five segments: host operations, the first dense layer's row-tiled region, host operations, the second
  layer's region, host operations. The buffer contents at the segment boundaries are a fold from the launch memory
  (`Gen.W0` … `Gen.W5`): a stretch of host operations applies them in order, a region leaves each of its arrays at what
  its write-backs fold to and every other buffer as it found it. Every weakly fair execution terminates, nothing
  faulting, with every unscoped buffer at the last boundary's contents `Gen.W5`; read at the result buffer and at the
  eleven arguments (which no segment writes) that is the statement below.
-/
import proofs.«180851_j19628000543387_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the last boundary's contents and the
    arguments as launched. -/
theorem run : θ_run defs (onTc (τ := τ) (main (F := F))) ⟨m, fun _ => 0, ρ⟩ (fun r => ∀ c : Dev nD,
      r.2.mem ((c.tc : Thread nD τ).loc main_v54) = W5 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v54 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.Result

end
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.SageDense.lean ====
/-
  One dense layer of a mean-aggregating graph convolution, read at an entry.

  The layer sends the neighbour means `mean` and the node features `x` (both [M, 128]) to
  `mean · Wl + x · Wr + b`, with `Wl`, `Wr` of shape [128, 128] and the bias `b` laid out as a row [1, 128]. At entry
  (r, c) that is

      (∑ₖ mean(r, k) · Wl(k, c)  +  ∑ₖ x(r, k) · Wr(k, c))  +  b(0, c),

  the two sums over k < 128 added first and the bias last. Two spellings compute exactly this grouping over the extended
  reals: two matrix products into zero accumulators, added, plus the bias row broadcast down the rows; and two
  `dot_general`s, added, plus the bias row broadcast in dimensions (0, 1). No sum is reordered and no factor is moved
  across a sum, so nothing needs the entries finite. The first layer is followed by the rectifier max(·, 0).

  Entry (r, c) depends on row r of `mean` and of `x` only: a block of consecutive rows of the layer is the layer of that
  block of rows — which is how a row-tiled computation of it is read back.
-/
import proofs.«180851_j19628000543387_1_alg».proof.Proof.LibPlainDot
import Idealize.ShloMosaic.Lib.Pipeline.Value
import Idealize.ShloMosaic.Lib.ValueLayout

noncomputable section

namespace Cert.SageDense

open Idealize.ShloMosaic Idealize.ShloMosaic.ValueIdx

variable {M : Nat}

/-- Entry (r, c) of `mean · Wl + x · Wr + b`, the bias a row [1, 128]. -/
def denseAt (mean x : (⟨2, ![M, 128]⟩ : Shape).Idx → EReal) (Wl Wr : (⟨2, ![128, 128]⟩ : Shape).Idx → EReal)
    (brow : (⟨2, ![1, 128]⟩ : Shape).Idx → EReal) (r : Fin M) (c : Fin 128) : EReal :=
  (∑ k : Fin 128, mean (ix2 r k) * Wl (ix2 k c) + ∑ k : Fin 128, x (ix2 r k) * Wr (ix2 k c)) + brow (ix2 (0 : Fin 1) c)

/-- The layer as an array [M, 128]. -/
def dense (mean x : (⟨2, ![M, 128]⟩ : Shape).Idx → EReal) (Wl Wr : (⟨2, ![128, 128]⟩ : Shape).Idx → EReal)
    (brow : (⟨2, ![1, 128]⟩ : Shape).Idx → EReal) : (⟨2, ![M, 128]⟩ : Shape).Idx → EReal :=
  fun i => denseAt mean x Wl Wr brow (i 0) (i 1)

/-- The layer followed by the rectifier max(·, 0), the zero kept as the f32 word it is written with. -/
def denseRelu (mean x : (⟨2, ![M, 128]⟩ : Shape).Idx → EReal) (Wl Wr : (⟨2, ![128, 128]⟩ : Shape).Idx → EReal)
    (brow : (⟨2, ![1, 128]⟩ : Shape).Idx → EReal) : (⟨2, ![M, 128]⟩ : Shape).Idx → EReal :=
  fun i => max (denseAt mean x Wl Wr brow (i 0) (i 1)) (Ideal.ofBits .f32 0x00000000#32)

theorem dense_apply (mean x : (⟨2, ![M, 128]⟩ : Shape).Idx → EReal) (Wl Wr : (⟨2, ![128, 128]⟩ : Shape).Idx → EReal)
    (brow : (⟨2, ![1, 128]⟩ : Shape).Idx → EReal) (r : Fin M) (c : Fin 128) :
    dense mean x Wl Wr brow (ix2 r c) = denseAt mean x Wl Wr brow r c := rfl

theorem denseRelu_apply (mean x : (⟨2, ![M, 128]⟩ : Shape).Idx → EReal) (Wl Wr : (⟨2, ![128, 128]⟩ : Shape).Idx → EReal)
    (brow : (⟨2, ![1, 128]⟩ : Shape).Idx → EReal) (r : Fin M) (c : Fin 128) :
    denseRelu mean x Wl Wr brow (ix2 r c) = max (denseAt mean x Wl Wr brow r c) (Ideal.ofBits .f32 0x00000000#32) := rfl

variable (wf : DotDims.WF (⟨2, ![M, 128]⟩ : Shape) ⟨2, ![128, 128]⟩ ⟨2, ![M, 128]⟩ [1] [0] [0] [1] [] [])

/-- Two matrix products into zero accumulators, added, plus the bias row broadcast down the rows: the layer's entry. -/
theorem matmul_form (hb : (⟨2, ![1, 128]⟩ : Shape).Broadcasts ⟨2, ![M, 128]⟩)
    (mean x : FVec Ideal ⟨2, ![M, 128]⟩ .bf16) (Wl Wr : FVec Ideal ⟨2, ![128, 128]⟩ .bf16)
    (brow : FVec Ideal ⟨2, ![1, 128]⟩ .f32) (p : Fin M) (q : Fin 128) :
    addf (addf (matmul (LibPlainDot.dims wf) none mean Wl (constant ⟨2, ![M, 128]⟩ .f32 0x00000000#32))
               (matmul (LibPlainDot.dims wf) none x Wr (constant ⟨2, ![M, 128]⟩ .f32 0x00000000#32)))
         (broadcastTo ⟨2, ![M, 128]⟩ brow hb) (ix2 p q)
      = denseAt mean x Wl Wr brow p q := by
  show (FloatOps.matmul (LibPlainDot.dims wf) none mean Wl (constant ⟨2, ![M, 128]⟩ .f32 0x00000000#32) (ix2 p q)
          + FloatOps.matmul (LibPlainDot.dims wf) none x Wr (constant ⟨2, ![M, 128]⟩ .f32 0x00000000#32) (ix2 p q))
        + broadcastTo ⟨2, ![M, 128]⟩ brow hb (ix2 p q) = _
  rw [LibPlainDot.matmul_zero_apply, LibPlainDot.matmul_zero_apply, broadcastTo_1b_ab_apply]
  rfl

/-- Two `dot_general`s, added, plus the bias row broadcast in dimensions (0, 1): the same entry. -/
theorem host_form (hbd : (⟨2, ![1, 128]⟩ : Shape).BroadcastsInDim ⟨2, ![M, 128]⟩ ![0, 1])
    (mean x : FVec Ideal ⟨2, ![M, 128]⟩ .f32) (Wl Wr : FVec Ideal ⟨2, ![128, 128]⟩ .f32)
    (brow : FVec Ideal ⟨2, ![1, 128]⟩ .f32) (r : Fin M) (c : Fin 128) :
    addf (addf (Host.dotGeneral (LibPlainDot.dims wf) none mean Wl) (Host.dotGeneral (LibPlainDot.dims wf) none x Wr))
         (broadcastInDim ⟨2, ![M, 128]⟩ ![0, 1] hbd brow) (ix2 r c)
      = denseAt mean x Wl Wr brow r c := by
  show (FloatOps.dotGeneral (LibPlainDot.dims wf) none .single mean Wl (ix2 r c)
          + FloatOps.dotGeneral (LibPlainDot.dims wf) none .single x Wr (ix2 r c))
        + broadcastInDim ⟨2, ![M, 128]⟩ ![0, 1] hbd brow (ix2 r c) = _
  rw [LibPlainDot.dotGeneral_apply, LibPlainDot.dotGeneral_apply,
    broadcastInDim_apply ![0, 1] hbd brow (ix2 r c) (ix2 (0 : Fin 1) c) (fun a => by
      match a with
      | ⟨0, _⟩ => rfl
      | ⟨1, _⟩ =>
        show c.val = if (128 : Nat) = 1 then 0 else c.val
        rw [if_neg (by decide)])]
  rfl

/-- ROW BLOCKS: entry (off + p, c) of the layer over M rows is entry (p, c) of the layer over rows off … off + B. -/
theorem denseAt_rows {B off : Nat} (hB : off + B ≤ M)
    (mean x : (⟨2, ![M, 128]⟩ : Shape).Idx → EReal) (Wl Wr : (⟨2, ![128, 128]⟩ : Shape).Idx → EReal)
    (brow : (⟨2, ![1, 128]⟩ : Shape).Idx → EReal) (p : Fin B) (c : Fin 128) :
    denseAt (fun y : (⟨2, ![B, 128]⟩ : Shape).Idx => mean (ix2 ⟨off + (y 0).val, by have := idx2_lt0 y; omega⟩ (y 1)))
        (fun y : (⟨2, ![B, 128]⟩ : Shape).Idx => x (ix2 ⟨off + (y 0).val, by have := idx2_lt0 y; omega⟩ (y 1))) Wl Wr brow p c
      = denseAt mean x Wl Wr brow ⟨off + p.val, by have := p.isLt; omega⟩ c := rfl

end Cert.SageDense

end
-- ==== Proof.KernelBlocks.lean ====
/-
  What the two row-tiled regions leave in their output arrays.

  Each region computes one dense layer (Proof/SageDense.lean) over 100000 rows in twenty blocks of 5000 rows: at grid
  point t it reads rows 5000·t … 5000·t + 4999 of the neighbour means and of the node features, the two whole weight
  matrices and the bias row, and writes the same rows of the output. An entry (r, c) of the layer reads row r of the two
  tiled inputs only, so what point t writes is block t of the layer of the WHOLE arrays; the twenty blocks tile the output,
  so after the region the output array is that layer. Stated for any contents `V` of the buffers at the region's entry.
-/
import proofs.«180851_j19628000543387_1_alg».proof.Proof.Gen.KernelIdeal.Frame
import proofs.«180851_j19628000543387_1_alg».proof.Proof.SageDense

set_option maxRecDepth 16384

noncomputable section

namespace Cert.KernelIdeal.Blocks

open Cert.KernelIdeal Cert.KernelIdeal.Gen Cert.SageDense
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The layer's entry depends only on row r of the tiled inputs, column c of the weights and entry c of the bias row. -/
theorem denseAt_congr {M M' : Nat}
    (mean x : (⟨2, ![M, 128]⟩ : Shape).Idx → EReal) (Wl Wr : (⟨2, ![128, 128]⟩ : Shape).Idx → EReal) (brow : (⟨2, ![1, 128]⟩ : Shape).Idx → EReal)
    (mean' x' : (⟨2, ![M', 128]⟩ : Shape).Idx → EReal) (Wl' Wr' : (⟨2, ![128, 128]⟩ : Shape).Idx → EReal) (brow' : (⟨2, ![1, 128]⟩ : Shape).Idx → EReal)
    (r : Fin M) (c : Fin 128) (r' : Fin M') (c' : Fin 128)
    (hm : ∀ k : Fin 128, mean (ix2 r k) = mean' (ix2 r' k)) (hx : ∀ k : Fin 128, x (ix2 r k) = x' (ix2 r' k))
    (hl : ∀ k : Fin 128, Wl (ix2 k c) = Wl' (ix2 k c')) (hr : ∀ k : Fin 128, Wr (ix2 k c) = Wr' (ix2 k c'))
    (hb : brow (ix2 (0 : Fin 1) c) = brow' (ix2 (0 : Fin 1) c')) :
    denseAt mean x Wl Wr brow r c = denseAt mean' x' Wl' Wr' brow' r' c' := by
  unfold denseAt
  rw [hb]
  refine congrArg (· + _) (congrArg₂ (· + ·) (Finset.sum_congr rfl fun k _ => ?_) (Finset.sum_congr rfl fun k _ => ?_))
  · rw [hm k, hl k]
  · rw [hx k, hr k]

/-- The first region's stored value at (p, q): the rounding to bf16 is the identity on the extended reals, the two
    products into zero accumulators and the broadcast bias row are the layer's entry, then max(·, 0). -/
theorem pay0_apply (v0 v3 : Vec Ideal S5000x128 .f32) (v5 v7 : Vec Ideal S128x128 .f32) (v12 : Vec Ideal S1x128 .f32)
    (p : Fin 5000) (q : Fin 128) :
    k0_pay1 v0 v3 v5 v7 v12 (ix2 p q) = denseRelu (M := 5000) v0 v3 v5 v7 v12 (ix2 p q) := by
  unfold k0_pay1
  rw [shapeCast_self, shapeCast_self]
  exact congrArg (fun z : EReal => max z (Ideal.ofBits .f32 0x00000000#32))
    (matmul_form dot_S5000x128_S128x128_S5000x128_1_0_0_1_n_n.wf broadcasts_S1x128_S5000x128 v0 v3 v5 v7 v12 p q)

/-- The second region's stored value at (p, q): the same without the rectifier. -/
theorem pay1_apply (v0 v3 : Vec Ideal S5000x128 .f32) (v6 v8 : Vec Ideal S128x128 .f32) (v13 : Vec Ideal S1x128 .f32)
    (p : Fin 5000) (q : Fin 128) :
    k1_pay1 v0 v3 v6 v8 v13 (ix2 p q) = dense (M := 5000) v0 v3 v6 v8 v13 (ix2 p q) := by
  unfold k1_pay1
  rw [shapeCast_self, shapeCast_self, shapeCast_self]
  exact matmul_form dot_S5000x128_S128x128_S5000x128_1_0_0_1_n_n.wf broadcasts_S1x128_S5000x128 v0 v3 v6 v8 v13 p q

/-! ## Region 0: the first layer, with the rectifier -/

section Region0

variable (V : (c : Dev nD) → (b : Ref sig .tc) → Buf (Elt Ideal) ((c : Thread nD τ).loc b))

/-- What the body leaves in the output block is the layer of the five input blocks. -/
theorem block0 (x0 x1 : Vec Ideal S5000x128 .f32) (x2 x3 : Vec Ideal S128x128 .f32) (x4 : Vec Ideal S1x128 .f32) :
    out0_5 x0 x1 x2 x3 x4 = denseRelu (M := 5000) x0 x1 x2 x3 x4 := by
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  exact pay0_apply x0 x1 x2 x3 x4 p q

/-- The printed index maps over the grid: the two row-tiled inputs move with the output, block t at rows
    5000·t …, and the weights and the bias row stay at block (0, 0). -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every block of rows is some point's. -/
theorem idx_onto0 : ∀ q0 : Fin 20, ∃ t : Fin cfg0.N, win0_5.index t = ![q0.val, 0] :=
  (by decide +kernel : ∀ q0 : Fin 20, ∃ t : Fin grid0.N, win0_5.index t = ![q0.val, 0])

/-- What point t writes back is block t of the layer of the whole arrays as the region finds them: an entry of the
    layer reads one row of the two row-tiled inputs, and that row is in the same block as the entry. -/
theorem flushed0_eq (c : Dev nD) (t : Fin cfg0.N) :
    (dat0 V c).flushed 5 t = ((cfg0.win 5).blk t).view.read (Elt Ideal)
      (denseRelu (M := 100000) (V c main_v22) (V c main_arg0) (V c main_arg3) (V c main_arg4) (V c main_v23)) := by
  show (cfg0.win 5).cut (grid0.coords t) ((dat0 V c).after 5 t) = _
  rw [after0_5, block0 (iblk0 V c 0 t) (iblk0 V c 1 t) (iblk0 V c 2 t) (iblk0 V c 3 t) (iblk0 V c 4 t)]
  obtain ⟨e00, e01, e10, e11, e20, e21, e30, e31, e40, e41, e51⟩ := idx_facts0 t
  funext j
  show denseRelu (M := 5000) (iblk0 V c 0 t) (iblk0 V c 1 t) (iblk0 V c 2 t) (iblk0 V c 3 t) (iblk0 V c 4 t) j
    = denseRelu (M := 100000) (V c main_v22) (V c main_arg0) (V c main_arg3) (V c main_arg4) (V c main_v23) (((cfg0.win 5).blk t).view.emb j)
  have hj0 : (j 0).val < 5000 := (j 0).isLt
  have hj1 : (j 1).val < 128 := (j 1).isLt
  unfold denseRelu
  refine congrArg (fun z : EReal => max z (Ideal.ofBits .f32 0x00000000#32)) (denseAt_congr _ _ _ _ _ _ _ _ _ _ _ _ _ _
    (fun k => ?_) (fun k => ?_) (fun k => ?_) (fun k => ?_) ?_)
  · show (V c main_v22 : S100000x128.Idx → EReal) (((cfg0.win 0).blk t).view.emb (ix2 (j 0) k)) = (V c main_v22 : S100000x128.Idx → EReal) (ix2 ((((cfg0.win 5).blk t).view.emb j) 0) k)
    refine congrArg _ (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · show (V c main_arg0 : S100000x128.Idx → EReal) (((cfg0.win 1).blk t).view.emb (ix2 (j 0) k)) = (V c main_arg0 : S100000x128.Idx → EReal) (ix2 ((((cfg0.win 5).blk t).view.emb j) 0) k)
    refine congrArg _ (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · show (V c main_arg3 : S128x128.Idx → EReal) (((cfg0.win 2).blk t).view.emb (ix2 k (j 1))) = (V c main_arg3 : S128x128.Idx → EReal) (ix2 k ((((cfg0.win 5).blk t).view.emb j) 1))
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  · show (V c main_arg4 : S128x128.Idx → EReal) (((cfg0.win 3).blk t).view.emb (ix2 k (j 1))) = (V c main_arg4 : S128x128.Idx → EReal) (ix2 k ((((cfg0.win 5).blk t).view.emb j) 1))
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  · show (V c main_v23 : S1x128.Idx → EReal) (((cfg0.win 4).blk t).view.emb (ix2 (0 : Fin 1) (j 1))) = (V c main_v23 : S1x128.Idx → EReal) (ix2 (0 : Fin 1) ((((cfg0.win 5).blk t).view.emb j) 1))
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega

/-- An index of the output array is in point t's block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- The twenty blocks of 5000 rows tile the 100000 rows: row r is in block r / 5000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the region: the layer of the arrays the region found. -/
theorem final0 (c : Dev nD) :
    (dat0 V c).arrAt 5 cfg0.N
      = denseRelu (M := 100000) (V c main_v22) (V c main_arg0) (V c main_arg3) (V c main_arg4) (V c main_v23) :=
  (dat0 V c).arrAt_eq_of_cover 5 _ (fun t _ => flushed0_eq V c t) (cover0)

end Region0

/-! ## Region 1: the second layer -/

section Region1

variable (V : (c : Dev nD) → (b : Ref sig .tc) → Buf (Elt Ideal) ((c : Thread nD τ).loc b))

/-- What the body leaves in the output block is the layer of the five input blocks. -/
theorem block1 (x0 x1 : Vec Ideal S5000x128 .f32) (x2 x3 : Vec Ideal S128x128 .f32) (x4 : Vec Ideal S1x128 .f32) :
    out1_5 x0 x1 x2 x3 x4 = dense (M := 5000) x0 x1 x2 x3 x4 := by
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  exact pay1_apply x0 x1 x2 x3 x4 p q

/-- The printed index maps over the grid: the two row-tiled inputs move with the output, block t at rows
    5000·t …, and the weights and the bias row stay at block (0, 0). -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 :=
  (by decide +kernel : ∀ t : Fin grid1.N, _)

/-- Every block of rows is some point's. -/
theorem idx_onto1 : ∀ q0 : Fin 20, ∃ t : Fin cfg1.N, win1_5.index t = ![q0.val, 0] :=
  (by decide +kernel : ∀ q0 : Fin 20, ∃ t : Fin grid1.N, win1_5.index t = ![q0.val, 0])

/-- What point t writes back is block t of the layer of the whole arrays as the region finds them: an entry of the
    layer reads one row of the two row-tiled inputs, and that row is in the same block as the entry. -/
theorem flushed1_eq (c : Dev nD) (t : Fin cfg1.N) :
    (dat1 V c).flushed 5 t = ((cfg1.win 5).blk t).view.read (Elt Ideal)
      (dense (M := 100000) (V c main_v36) (V c main_v24) (V c main_arg6) (V c main_arg7) (V c main_v37)) := by
  show (cfg1.win 5).cut (grid1.coords t) ((dat1 V c).after 5 t) = _
  rw [after1_5, block1 (iblk1 V c 0 t) (iblk1 V c 1 t) (iblk1 V c 2 t) (iblk1 V c 3 t) (iblk1 V c 4 t)]
  obtain ⟨e00, e01, e10, e11, e20, e21, e30, e31, e40, e41, e51⟩ := idx_facts1 t
  funext j
  show dense (M := 5000) (iblk1 V c 0 t) (iblk1 V c 1 t) (iblk1 V c 2 t) (iblk1 V c 3 t) (iblk1 V c 4 t) j
    = dense (M := 100000) (V c main_v36) (V c main_v24) (V c main_arg6) (V c main_arg7) (V c main_v37) (((cfg1.win 5).blk t).view.emb j)
  have hj0 : (j 0).val < 5000 := (j 0).isLt
  have hj1 : (j 1).val < 128 := (j 1).isLt
  unfold dense
  refine (denseAt_congr _ _ _ _ _ _ _ _ _ _ _ _ _ _
    (fun k => ?_) (fun k => ?_) (fun k => ?_) (fun k => ?_) ?_)
  · show (V c main_v36 : S100000x128.Idx → EReal) (((cfg1.win 0).blk t).view.emb (ix2 (j 0) k)) = (V c main_v36 : S100000x128.Idx → EReal) (ix2 ((((cfg1.win 5).blk t).view.emb j) 0) k)
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · show (V c main_v24 : S100000x128.Idx → EReal) (((cfg1.win 1).blk t).view.emb (ix2 (j 0) k)) = (V c main_v24 : S100000x128.Idx → EReal) (ix2 ((((cfg1.win 5).blk t).view.emb j) 0) k)
    refine congrArg _ (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · show (V c main_arg6 : S128x128.Idx → EReal) (((cfg1.win 2).blk t).view.emb (ix2 k (j 1))) = (V c main_arg6 : S128x128.Idx → EReal) (ix2 k ((((cfg1.win 5).blk t).view.emb j) 1))
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  · show (V c main_arg7 : S128x128.Idx → EReal) (((cfg1.win 3).blk t).view.emb (ix2 k (j 1))) = (V c main_arg7 : S128x128.Idx → EReal) (ix2 k ((((cfg1.win 5).blk t).view.emb j) 1))
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  · show (V c main_v37 : S1x128.Idx → EReal) (((cfg1.win 4).blk t).view.emb (ix2 (0 : Fin 1) (j 1))) = (V c main_v37 : S1x128.Idx → EReal) (ix2 (0 : Fin 1) ((((cfg1.win 5).blk t).view.emb j) 1))
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega

/-- An index of the output array is in point t's block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v38).slice (win1_5.rect t)).set ↔ _
  rw [View.set_slice_whole, Rect.mem_set_unit]
  exact Iff.rfl

/-- The twenty blocks of 5000 rows tile the 100000 rows: row r is in block r / 5000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region: the layer of the arrays the region found. -/
theorem final1 (c : Dev nD) :
    (dat1 V c).arrAt 5 cfg1.N
      = dense (M := 100000) (V c main_v36) (V c main_v24) (V c main_arg6) (V c main_arg7) (V c main_v37) :=
  (dat1 V c).arrAt_eq_of_cover 5 _ (fun t _ => flushed1_eq V c t) (cover1)

end Region1

end Cert.KernelIdeal.Blocks

end
-- ==== Proof.RefLayers.lean ====
/-
  The reference's two dense layers are the layer of Proof/SageDense.lean.

  The reference computes each layer as `mean @ Wl + x @ Wr + b`: two `dot_general`s over the 100000 rows at once,
  added, plus the bias vector laid out as a row [1, 128] and broadcast in dimensions (0, 1); the first layer is followed
  by `maximum(·, 0)`. Entry by entry that is the layer's entry, for the first layer under the rectifier.
-/
import proofs.«180851_j19628000543387_1_alg».proof.Proof.Gen.ReferenceIdeal.Read
import proofs.«180851_j19628000543387_1_alg».proof.Proof.SageDense

noncomputable section

namespace Cert.ReferenceIdeal.Layers

open Cert.ReferenceIdeal Cert.ReferenceIdeal.Gen Cert.ReferenceIdeal.Read Cert.SageDense
open Idealize.ShloMosaic Idealize.ShloMosaic.ValueIdx

/-- Two whole products, added, plus the broadcast bias row, as an array: the layer. -/
theorem sum_eq_dense (X Y : FVec Ideal S100000x128 .f32) (Wl Wr : FVec Ideal S128x128 .f32) (b : FVec Ideal S1x128 .f32) :
    addf (F := Ideal) (addf (F := Ideal) (Host.dotGeneral (F := Ideal) dot_S100000x128_S128x128_S100000x128_1_0_0_1_n_n none X Wl)
        (Host.dotGeneral (F := Ideal) dot_S100000x128_S128x128_S100000x128_1_0_0_1_n_n none Y Wr))
      (broadcastInDim S100000x128 ![0, 1] bcast_S1x128_S100000x128_0_1 b)
      = dense (M := 100000) X Y Wl Wr b := by
  funext i
  obtain ⟨r, c, rfl⟩ : ∃ (r : Fin 100000) (c : Fin 128), i = ix2 r c := ⟨i 0, i 1, eq_ix2 i⟩
  exact host_form dot_S100000x128_S128x128_S100000x128_1_0_0_1_n_n.wf bcast_S1x128_S100000x128_0_1 X Y Wl Wr b r c

/-- The rectifier over an array, the zero a broadcast scalar constant: entry by entry max(·, 0). -/
theorem relu_dense (X Y : FVec Ideal S100000x128 .f32) (Wl Wr : FVec Ideal S128x128 .f32) (b : FVec Ideal S1x128 .f32) :
    maximumf (F := Ideal) (dense (M := 100000) X Y Wl Wr b)
      (broadcastInDim S100000x128 ![] bcast_S_S100000x128 (constant (F := Ideal) S_ .f32 0x00000000#32))
      = denseRelu (M := 100000) X Y Wl Wr b := rfl

set_option maxHeartbeats 400000 in
/-- The first layer's output (after the rectifier) is the rectified layer of the neighbour means and the node features. -/
theorem layer1 (a0 : FVec Ideal S100000x128 .f32) (a1 : (⟨S2x1600000, .i32⟩ : BufTy).Contents (Elt Ideal)) (a3 a4 : FVec Ideal S128x128 .f32) (a5 : FVec Ideal S128 .f32) :
    val_main_v29 (F := Ideal) a0 a1 a3 a4 a5
      = denseRelu (M := 100000) (val_main_v22 (F := Ideal) a0 a1) a0 a3 a4 (val_main_v26 (F := Ideal) a5) := by
  rw [← relu_dense, ← sum_eq_dense]
  rfl

set_option maxHeartbeats 400000 in
/-- The second layer's output is the layer of the second neighbour means and the first layer's output. -/
theorem layer2 (a0 : FVec Ideal S100000x128 .f32) (a1 : (⟨S2x1600000, .i32⟩ : BufTy).Contents (Elt Ideal)) (a3 a4 : FVec Ideal S128x128 .f32) (a5 : FVec Ideal S128 .f32)
    (a6 a7 : FVec Ideal S128x128 .f32) (a8 : FVec Ideal S128 .f32) :
    val_main_v54 (F := Ideal) a0 a1 a3 a4 a5 a6 a7 a8
      = dense (M := 100000) (val_main_v48 (F := Ideal) a0 a1 a3 a4 a5) (val_main_v29 (F := Ideal) a0 a1 a3 a4 a5) a6 a7 (val_main_v52 (F := Ideal) a8) := by
  rw [← sum_eq_dense]
  rfl

end Cert.ReferenceIdeal.Layers

end
-- ==== Proof.LibBiasRow.lean ====
/-
  A vector of n entries laid out as a row [1, n] — two spellings of one array.

  jnp writes `b[None, :]` either as `broadcast_in_dim` with the vector's axis sent to axis 1, or as a reshape
  [n] → [1, n]. Both read, at (0, i), the vector at i: the broadcast because axis 1 of the result is the
  vector's axis and axis 0 is new, the reshape because row-major position 0·n + i is position i. So the two
  rows are equal as arrays, for every n and every element type.
-/
import Idealize.ShloMosaic.PureOps.Ideal
import Idealize.ShloMosaic.Lib.Pipeline.Value
import Idealize.ShloMosaic.Lib.ValueIdx
import Idealize.ShloMosaic.Lib.ValueLayout

noncomputable section

namespace Cert.LibBiasRow

open Idealize.ShloMosaic Idealize.ShloMosaic.ValueIdx

/-- A vector [n] broadcast in dimension 1 to a row [1, n] is the vector reshaped to [1, n]. -/
theorem bcastRow_eq_reshape {n : Nat} {α : Type} (x : (⟨1, ![n]⟩ : Shape).Idx → α)
    (hb : (⟨1, ![n]⟩ : Shape).BroadcastsInDim ⟨2, ![1, n]⟩ ![1])
    (hs : (⟨1, ![n]⟩ : Shape).ShapeCasts ⟨2, ![1, n]⟩) :
    broadcastInDim ⟨2, ![1, n]⟩ ![1] hb x = shapeCast ⟨2, ![1, n]⟩ x hs := by
  funext j
  obtain ⟨u, i, rfl⟩ : ∃ (u : Fin 1) (i : Fin n), j = ix2 u i := ⟨j 0, j 1, eq_ix2 j⟩
  rw [shapeCast_a_1a_apply]
  refine broadcastInDim_apply _ hb x _ (ix1 i) (fun a => ?_)
  match a with
  | ⟨0, _⟩ =>
    show i.val = if n = 1 then 0 else i.val
    have := i.isLt
    split <;> omega

end Cert.LibBiasRow

end
-- ==== Proof.KernelChain.lean ====
/-
  The contents of the buffers at the segment boundaries of the two-layer program, read at the buffers each next
  segment uses, and the result.

  The program and the reference apply the same host operations in the same order — the edge lists sliced out of the
  index array, the in-degrees by a scatter-add of ones (clamped below by one), the neighbour sums by a gather and a
  scatter-add, their quotient by the degrees, and at the end the per-graph means and the final affine map. They differ only
  in how each dense layer is computed: the program by a row-tiled region (Proof/KernelBlocks.lean: its output array is the
  layer of the arrays it finds), the reference by two whole products (Proof/RefLayers.lean: the same layer); and the program
  lays the bias out as a row by a reshape where the reference broadcasts it, which is one array. So, boundary by boundary,
  each buffer a later segment reads holds the reference's stage of the same name, as whole arrays; in particular the result.
  Nothing here opens the precondition: no step uses that an entry is finite.
-/
import proofs.«180851_j19628000543387_1_alg».proof.Proof.KernelBlocks
import proofs.«180851_j19628000543387_1_alg».proof.Proof.RefLayers
import proofs.«180851_j19628000543387_1_alg».proof.Proof.LibBiasRow
import Idealize.ShloMosaic.Lib.StableHlo.Run

set_option maxRecDepth 16384

noncomputable section

namespace Cert.KernelIdeal.Chain

open Cert.KernelIdeal Cert.KernelIdeal.Gen Cert.SageDense
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Before the first region -/

/-- No host operation before the first region writes an argument. -/
theorem W1_main_arg0 : W1 m ρ c (Proc.devRef .tc main_arg0) = m ((c : Thread nD τ).loc main_arg0) := by
  show StableHlo.after hostOps0 (W0 m ρ c) (Proc.devRef .tc main_arg0) = _
  after_results_simp <;> rfl

theorem W1_main_arg1 : W1 m ρ c (Proc.devRef .tc main_arg1) = m ((c : Thread nD τ).loc main_arg1) := by
  show StableHlo.after hostOps0 (W0 m ρ c) (Proc.devRef .tc main_arg1) = _
  after_results_simp <;> rfl

theorem W1_main_arg2 : W1 m ρ c (Proc.devRef .tc main_arg2) = m ((c : Thread nD τ).loc main_arg2) := by
  show StableHlo.after hostOps0 (W0 m ρ c) (Proc.devRef .tc main_arg2) = _
  after_results_simp <;> rfl

theorem W1_main_arg3 : W1 m ρ c (Proc.devRef .tc main_arg3) = m ((c : Thread nD τ).loc main_arg3) := by
  show StableHlo.after hostOps0 (W0 m ρ c) (Proc.devRef .tc main_arg3) = _
  after_results_simp <;> rfl

theorem W1_main_arg4 : W1 m ρ c (Proc.devRef .tc main_arg4) = m ((c : Thread nD τ).loc main_arg4) := by
  show StableHlo.after hostOps0 (W0 m ρ c) (Proc.devRef .tc main_arg4) = _
  after_results_simp <;> rfl

theorem W1_main_arg5 : W1 m ρ c (Proc.devRef .tc main_arg5) = m ((c : Thread nD τ).loc main_arg5) := by
  show StableHlo.after hostOps0 (W0 m ρ c) (Proc.devRef .tc main_arg5) = _
  after_results_simp <;> rfl

theorem W1_main_arg6 : W1 m ρ c (Proc.devRef .tc main_arg6) = m ((c : Thread nD τ).loc main_arg6) := by
  show StableHlo.after hostOps0 (W0 m ρ c) (Proc.devRef .tc main_arg6) = _
  after_results_simp <;> rfl

theorem W1_main_arg7 : W1 m ρ c (Proc.devRef .tc main_arg7) = m ((c : Thread nD τ).loc main_arg7) := by
  show StableHlo.after hostOps0 (W0 m ρ c) (Proc.devRef .tc main_arg7) = _
  after_results_simp <;> rfl

theorem W1_main_arg8 : W1 m ρ c (Proc.devRef .tc main_arg8) = m ((c : Thread nD τ).loc main_arg8) := by
  show StableHlo.after hostOps0 (W0 m ρ c) (Proc.devRef .tc main_arg8) = _
  after_results_simp <;> rfl

theorem W1_main_arg9 : W1 m ρ c (Proc.devRef .tc main_arg9) = m ((c : Thread nD τ).loc main_arg9) := by
  show StableHlo.after hostOps0 (W0 m ρ c) (Proc.devRef .tc main_arg9) = _
  after_results_simp <;> rfl

theorem W1_main_arg10 : W1 m ρ c (Proc.devRef .tc main_arg10) = m ((c : Thread nD τ).loc main_arg10) := by
  show StableHlo.after hostOps0 (W0 m ρ c) (Proc.devRef .tc main_arg10) = _
  after_results_simp <;> rfl

/-- The neighbour means of the node features. -/
theorem W1_mean : W1 m ρ c (Proc.devRef .tc main_v22) = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  after_results_simp <;> rfl

/-- The first bias as a row: the vector reshaped to [1, 128]. -/
theorem W1_brow : W1 m ρ c (Proc.devRef .tc main_v23)
    = shapeCast S1x128 (m ((c : Thread nD τ).loc main_arg5)) Gen.shapeCasts_S128_S1x128 := by
  show StableHlo.after hostOps0 (W0 m ρ c) (Proc.devRef .tc main_v23) = _
  after_results_simp <;> rfl

/-- A vector reshaped to a row is the vector broadcast to that row (the reference's spelling). -/
theorem row_eq (b : FVec Ideal S128 .f32) :
    shapeCast S1x128 b Gen.shapeCasts_S128_S1x128 = Cert.ReferenceIdeal.Read.val_main_v26 (F := Ideal) b :=
  (Cert.LibBiasRow.bcastRow_eq_reshape b Cert.ReferenceIdeal.Gen.bcast_S128_S1x128_1 Gen.shapeCasts_S128_S1x128).symm

theorem row_eq' (b : FVec Ideal S128 .f32) :
    shapeCast S1x128 b Gen.shapeCasts_S128_S1x128 = Cert.ReferenceIdeal.Read.val_main_v52 (F := Ideal) b :=
  (Cert.LibBiasRow.bcastRow_eq_reshape b Cert.ReferenceIdeal.Gen.bcast_S128_S1x128_1 Gen.shapeCasts_S128_S1x128).symm

/-! ## After the first region -/

/-- The first region's output array is the reference's first layer (after its rectifier). -/
theorem W2_h : W2 m ρ c (Proc.devRef .tc main_v24) = Cert.ReferenceIdeal.Read.val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ?_
  rw [Blocks.final0 (V1 m ρ) c]
  show denseRelu (M := 100000) (W1 m ρ c (Proc.devRef .tc main_v22)) (W1 m ρ c (Proc.devRef .tc main_arg0)) (W1 m ρ c (Proc.devRef .tc main_arg3))
    (W1 m ρ c (Proc.devRef .tc main_arg4)) (W1 m ρ c (Proc.devRef .tc main_v23)) = _
  rw [W1_mean, W1_main_arg0, W1_main_arg3, W1_main_arg4, W1_brow, row_eq]
  exact (Cert.ReferenceIdeal.Layers.layer1 _ _ _ _ _).symm

/-- The arguments the later segments read are no array of the first region. -/
theorem W2_main_arg2 : W2 m ρ c (Proc.devRef .tc main_arg2) = m ((c : Thread nD τ).loc main_arg2) :=
  (W2_of_ne m ρ c main_arg2 (by decide)).trans (W1_main_arg2 m ρ c)

theorem W2_main_arg6 : W2 m ρ c (Proc.devRef .tc main_arg6) = m ((c : Thread nD τ).loc main_arg6) :=
  (W2_of_ne m ρ c main_arg6 (by decide)).trans (W1_main_arg6 m ρ c)

theorem W2_main_arg7 : W2 m ρ c (Proc.devRef .tc main_arg7) = m ((c : Thread nD τ).loc main_arg7) :=
  (W2_of_ne m ρ c main_arg7 (by decide)).trans (W1_main_arg7 m ρ c)

theorem W2_main_arg8 : W2 m ρ c (Proc.devRef .tc main_arg8) = m ((c : Thread nD τ).loc main_arg8) :=
  (W2_of_ne m ρ c main_arg8 (by decide)).trans (W1_main_arg8 m ρ c)

theorem W2_main_arg9 : W2 m ρ c (Proc.devRef .tc main_arg9) = m ((c : Thread nD τ).loc main_arg9) :=
  (W2_of_ne m ρ c main_arg9 (by decide)).trans (W1_main_arg9 m ρ c)

theorem W2_main_arg10 : W2 m ρ c (Proc.devRef .tc main_arg10) = m ((c : Thread nD τ).loc main_arg10) :=
  (W2_of_ne m ρ c main_arg10 (by decide)).trans (W1_main_arg10 m ρ c)

/-! ## Before the second region -/

theorem W3_main_arg2 : W3 m ρ c (Proc.devRef .tc main_arg2) = m ((c : Thread nD τ).loc main_arg2) := by
  show StableHlo.after hostOps1 (W2 m ρ c) (Proc.devRef .tc main_arg2) = _
  after_results_simp
  exact W2_main_arg2 m ρ c

theorem W3_main_arg6 : W3 m ρ c (Proc.devRef .tc main_arg6) = m ((c : Thread nD τ).loc main_arg6) := by
  show StableHlo.after hostOps1 (W2 m ρ c) (Proc.devRef .tc main_arg6) = _
  after_results_simp
  exact W2_main_arg6 m ρ c

theorem W3_main_arg7 : W3 m ρ c (Proc.devRef .tc main_arg7) = m ((c : Thread nD τ).loc main_arg7) := by
  show StableHlo.after hostOps1 (W2 m ρ c) (Proc.devRef .tc main_arg7) = _
  after_results_simp
  exact W2_main_arg7 m ρ c

theorem W3_main_arg9 : W3 m ρ c (Proc.devRef .tc main_arg9) = m ((c : Thread nD τ).loc main_arg9) := by
  show StableHlo.after hostOps1 (W2 m ρ c) (Proc.devRef .tc main_arg9) = _
  after_results_simp
  exact W2_main_arg9 m ρ c

theorem W3_main_arg10 : W3 m ρ c (Proc.devRef .tc main_arg10) = m ((c : Thread nD τ).loc main_arg10) := by
  show StableHlo.after hostOps1 (W2 m ρ c) (Proc.devRef .tc main_arg10) = _
  after_results_simp
  exact W2_main_arg10 m ρ c

/-- The first layer's output is still there. -/
theorem W3_h : W3 m ρ c (Proc.devRef .tc main_v24) = Cert.ReferenceIdeal.Read.val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v24) = _
  after_results_simp
  exact W2_h m ρ c

/-- The second bias as a row. -/
theorem W3_brow : W3 m ρ c (Proc.devRef .tc main_v37)
    = shapeCast S1x128 (m ((c : Thread nD τ).loc main_arg8)) Gen.shapeCasts_S128_S1x128 := by
  show StableHlo.after hostOps1 (W2 m ρ c) (Proc.devRef .tc main_v37) = _
  after_results_simp
  rw [W2_main_arg8]
  rfl

/-- The neighbour means of the first layer's output: the same gather, scatter-add and quotient by the degrees the
    reference applies to its first layer's output, the edge lists and the degrees those computed before the first region. -/
theorem W3_mean : W3 m ρ c (Proc.devRef .tc main_v36) = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v36) = _
  after_results_simp
  rw [W2_h, W2_of_ne m ρ c main_v1 (by decide), W2_of_ne m ρ c main_v3 (by decide), W2_of_ne m ρ c main_v10 (by decide)]
  show _ = _
  unfold W1
  after_results_simp
  rfl

/-! ## After the second region -/

/-- The second region's output array is the reference's second layer. -/
theorem W4_h2 : W4 m ρ c (Proc.devRef .tc main_v38) = Cert.ReferenceIdeal.Read.val_main_v54 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ?_
  rw [Blocks.final1 (V3 m ρ) c]
  show dense (M := 100000) (W3 m ρ c (Proc.devRef .tc main_v36)) (W3 m ρ c (Proc.devRef .tc main_v24)) (W3 m ρ c (Proc.devRef .tc main_arg6))
    (W3 m ρ c (Proc.devRef .tc main_arg7)) (W3 m ρ c (Proc.devRef .tc main_v37)) = _
  rw [W3_mean, W3_h, W3_main_arg6, W3_main_arg7, W3_brow, row_eq']
  exact (Cert.ReferenceIdeal.Layers.layer2 _ _ _ _ _ _ _ _).symm

theorem W4_main_arg2 : W4 m ρ c (Proc.devRef .tc main_arg2) = m ((c : Thread nD τ).loc main_arg2) :=
  (W4_of_ne m ρ c main_arg2 (by decide)).trans (W3_main_arg2 m ρ c)

theorem W4_main_arg9 : W4 m ρ c (Proc.devRef .tc main_arg9) = m ((c : Thread nD τ).loc main_arg9) :=
  (W4_of_ne m ρ c main_arg9 (by decide)).trans (W3_main_arg9 m ρ c)

theorem W4_main_arg10 : W4 m ρ c (Proc.devRef .tc main_arg10) = m ((c : Thread nD τ).loc main_arg10) :=
  (W4_of_ne m ρ c main_arg10 (by decide)).trans (W3_main_arg10 m ρ c)

/-! ## The result -/

/-- The program's result is the reference's: the per-graph means of the second layer's output and the final affine map
    are the same host operations on both sides. -/
theorem result : W5 m ρ c (Proc.devRef .tc main_v54) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W4 m ρ c) (Proc.devRef .tc main_v54) = _
  after_results_simp
  rw [W4_h2, W4_main_arg2, W4_main_arg9, W4_main_arg10]
  rfl

end Cert.KernelIdeal.Chain

end
-- ==== Proof.lean ====
/-
  A two-layer mean-aggregating graph network with a per-graph mean pool and a final affine map, computed two ways,
  gives one result over the extended reals.

  Both programs slice the source and target lists out of the edge array, count in-degrees by a scatter-add of ones
  (clamped below by one), and for each of the two layers gather the source rows, scatter-add them into the target rows,
  divide by the degrees, and apply the dense map `mean · Wl + x · Wr + b` (the first followed by max(·, 0)); then they average
  the second layer's rows per graph and apply `· Wfc + bfc`. The host operations are the same on both sides, in the same
  order. The two sides differ only in the dense map: one computes it over twenty blocks of 5000 rows, each block two matrix
  products into zero accumulators (their operands rounded to a narrower format, which is the identity on the extended reals)
  plus the bias row; the other as two products over all rows plus the broadcast bias. An entry of the dense map reads one row of
  its inputs, so the blocks of the map are the map of the blocks, and the twenty blocks tile the rows (Proof/KernelBlocks.lean);
  both spellings group the entry as (sum + sum) + bias, so no sum is reordered and finiteness of the inputs is never used
  (Proof/SageDense.lean). Boundary by boundary the tiled program's buffers hold the other program's stages
  (Proof/KernelChain.lean), and so its result.
-/
import proofs.«180851_j19628000543387_1_alg».proof.Defs
import proofs.«180851_j19628000543387_1_alg».proof.Proof.Gen.Kernel
import proofs.«180851_j19628000543387_1_alg».proof.Proof.Gen.Kernel.Frame
import proofs.«180851_j19628000543387_1_alg».proof.Proof.Gen.KernelIdeal
import proofs.«180851_j19628000543387_1_alg».proof.Proof.Gen.KernelIdeal.Frame
import proofs.«180851_j19628000543387_1_alg».proof.Proof.Gen.ReferenceIdeal
import proofs.«180851_j19628000543387_1_alg».proof.Proof.Gen.ReferenceIdeal.Run
import proofs.«180851_j19628000543387_1_alg».proof.Proof.Gen.ReferenceIdeal.Read
import proofs.«180851_j19628000543387_1_alg».proof.Proof.Gen.Pre_finite_inputs
import proofs.«180851_j19628000543387_1_alg».proof.Proof.KernelRun
import proofs.«180851_j19628000543387_1_alg».proof.Proof.KernelChain
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Gen.frame m ρ

/-- So does the program read over the extended reals. -/
theorem frame_ki : Cert.frame_KernelIdeal := fun m ρ _ => Cert.KernelIdeal.Gen.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs run, and the tiled program's result — the last segment
    boundary's contents at the result buffer — is the reference's composed term of the arguments. -/
theorem algebraic : Cert.algebraic_KernelIdeal_ReferenceIdeal := by
  intro m ρ m' ρ' _ hagree
  refine ⟨fun c => Cert.KernelIdeal.Gen.W5 m ρ c (Proc.devRef .tc Cert.KernelIdeal.main_v54),
    Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v70_eq, h0, h1, h2, h3, h4, h5, h6, h7, h8, h9, h10]
  exact (Cert.KernelIdeal.Chain.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
